-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1x48x48 : Shape := ⟨4, ![8192, 1, 48, 48]⟩
abbrev S2304x128 : Shape := ⟨2, ![2304, 128]⟩
abbrev S128 : Shape := ⟨1, ![128]⟩
abbrev S_ : Shape := ⟨0, ![]⟩

class Facts : Prop where
  bcast_S_S8192x1x48x48 : S_.BroadcastsInDim S8192x1x48x48 (![] : Fin 0 → Fin S8192x1x48x48.rank)
  reducesTo_S8192x1x48x48_S_d0_1_2_3 : S8192x1x48x48.ReducesTo [0, 1, 2, 3] S_
  h_S_ : 0 < S_.numel
  bcast_S_S2304x128 : S_.BroadcastsInDim S2304x128 (![] : Fin 0 → Fin S2304x128.rank)
  reducesTo_S2304x128_S_d0_1 : S2304x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S2304x128 1) : IVec S_ 1 :=
  let main_c_5 : IVec S_ 1 := constantI S_ 1 1#1
  let main_v17 : IVec S_ 1 := (fun x v => Host.reduce IntOp.andi x v reducesTo_S2304x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S8192x1x48x48 .f32) (main_arg1 : FVec F S8192x1x48x48 .f32) (main_arg2 : FVec F S8192x1x48x48 .f32) (main_arg3 : FVec F S2304x128 .f32) (main_arg4 : FVec F S128 .f32) : IVec S_ 1 :=
  let main_v0 : FVec F S8192x1x48x48 .f32 := Host.absf main_arg0
  let main_cst : FVec F S_ .f32 := constant S_ .f32 0x7F800000#32
  let main_v1 : FVec F S8192x1x48x48 .f32 := broadcastInDim S8192x1x48x48 ![] bcast_S_S8192x1x48x48 main_cst
  let main_v2 : IVec S8192x1x48x48 1 := cmpf .olt main_v0 main_v1
  let main_c : IVec S_ 1 := constantI S_ 1 1#1
  let main_v3 : IVec S_ 1 := (fun x v => Host.reduce IntOp.andi x v reducesTo_S8192x1x48x48_S_d0_1_2_3 h_S_) main_v2 main_c
  let main_v4 : FVec F S8192x1x48x48 .f32 := Host.absf main_arg1
  let main_cst_0 : FVec F S_ .f32 := constant S_ .f32 0x7F800000#32
  let main_v5 : FVec F S8192x1x48x48 .f32 := broadcastInDim S8192x1x48x48 ![] bcast_S_S8192x1x48x48 main_cst_0
  let main_v6 : IVec S8192x1x48x48 1 := cmpf .olt main_v4 main_v5
  let main_c_1 : IVec S_ 1 := constantI S_ 1 1#1
  let main_v7 : IVec S_ 1 := (fun x v => Host.reduce IntOp.andi x v reducesTo_S8192x1x48x48_S_d0_1_2_3 h_S_) main_v6 main_c_1
  let main_v8 : IVec S_ 1 := andi main_v3 main_v7
  let main_v9 : FVec F S8192x1x48x48 .f32 := Host.absf main_arg2
  let main_cst_2 : FVec F S_ .f32 := constant S_ .f32 0x7F800000#32
  let main_v10 : FVec F S8192x1x48x48 .f32 := broadcastInDim S8192x1x48x48 ![] bcast_S_S8192x1x48x48 main_cst_2
  let main_v11 : IVec S8192x1x48x48 1 := cmpf .olt main_v9 main_v10
  let main_c_3 : IVec S_ 1 := constantI S_ 1 1#1
  let main_v12 : IVec S_ 1 := (fun x v => Host.reduce IntOp.andi x v reducesTo_S8192x1x48x48_S_d0_1_2_3 h_S_) main_v11 main_c_3
  let main_v13 : IVec S_ 1 := andi main_v8 main_v12
  let main_v14 : FVec F S2304x128 .f32 := Host.absf main_arg3
  let main_cst_4 : FVec F S_ .f32 := constant S_ .f32 0x7F800000#32
  let main_v15 : FVec F S2304x128 .f32 := broadcastInDim S2304x128 ![] bcast_S_S2304x128 main_cst_4
  let main_v16 : IVec S2304x128 1 := cmpf .olt main_v14 main_v15
  fn_part1 (F := F) main_arg4 main_v13 main_v16
-- ==== Kernel.lean ====
abbrev S8192x1x48x48 : Shape := ⟨4, ![8192, 1, 48, 48]⟩
abbrev S2304x128 : Shape := ⟨2, ![2304, 128]⟩
abbrev S128 : Shape := ⟨1, ![128]⟩
abbrev S8192x2304 : Shape := ⟨2, ![8192, 2304]⟩
abbrev S1x1 : Shape := ⟨2, ![1, 1]⟩
abbrev S512x2304 : Shape := ⟨2, ![512, 2304]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 10
  | .vmem => 10
  | .smem => 0
  | _ => 0

abbrev bufTy : (tb : Table) → Fin (tcTables nBuf tb) → BufTy
  | .hbm, ⟨0, _⟩ => ⟨S8192x1x48x48, .f32⟩
  | .hbm, ⟨1, _⟩ => ⟨S8192x1x48x48, .f32⟩
  | .hbm, ⟨2, _⟩ => ⟨S8192x1x48x48, .f32⟩
  | .hbm, ⟨3, _⟩ => ⟨S2304x128, .f32⟩
  | .hbm, ⟨4, _⟩ => ⟨S128, .f32⟩
  | .hbm, ⟨5, _⟩ => ⟨S8192x2304, .f32⟩
  | .hbm, ⟨6, _⟩ => ⟨S8192x2304, .f32⟩
  | .hbm, ⟨7, _⟩ => ⟨S8192x2304, .f32⟩
  | .hbm, ⟨8, _⟩ => ⟨S1x1, .f32⟩
  | .hbm, ⟨9, _⟩ => ⟨S_, .f32⟩
  | .local _ .vmem, ⟨0, _⟩ => ⟨S512x2304, .f32⟩
  | .local _ .vmem, ⟨1, _⟩ => ⟨S512x2304, .f32⟩
  | .local _ .vmem, ⟨2, _⟩ => ⟨S512x2304, .f32⟩
  | .local _ .vmem, ⟨3, _⟩ => ⟨S512x2304, .f32⟩
  | .local _ .vmem, ⟨4, _⟩ => ⟨S512x2304, .f32⟩
  | .local _ .vmem, ⟨5, _⟩ => ⟨S512x2304, .f32⟩
  | .local _ .vmem, ⟨6, _⟩ => ⟨S2304x128, .f32⟩
  | .local _ .vmem, ⟨7, _⟩ => ⟨S128, .f32⟩
  | .local _ .vmem, ⟨8, _⟩ => ⟨S1x1, .f32⟩
  | .local _ .vmem, ⟨9, _⟩ => ⟨S1x1, .f32⟩
  | _, _ => ⟨S8192x1x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v47 : BitVec 1 := Scalar.cmpi .eq arg0 c15_i32
  let v48 : BitVec 32 := Scalar.extui v47
  let c0_i32_20 : BitVec 32 := 0#32
  let v49 : BitVec 1 := Scalar.cmpi .ne v48 c0_i32_20
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2304x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S8192x1x48x48_S8192x2304 : S8192x1x48x48.ShapeCasts S8192x2304
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x2304_S512x2304_0_0 : ∀ a, (![0, 0] : Fin 2 → Nat) a + S512x2304.size a ≤ S512x2304.size a
  h_S512x2304 : 0 < S512x2304.numel
  shapeCasts_S512x2304_S512x2304 : S512x2304.ShapeCasts S512x2304
  bitsLt_bf16_f32 : FTy.bits .bf16 < FTy.bits .f32
  inb_S2304x128_S2304x128_0_0 : ∀ a, (![0, 0] : Fin 2 → Nat) a + S2304x128.size a ≤ S2304x128.size a
  h_S2304x128 : 0 < S2304x128.numel
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  reduces_S512x128_S512 : S512x128.Reduces [1] S512
  shapeCasts_S512_S512x1 : S512.ShapeCasts S512x1
  reduces_S512x1_S1 : S512x1.Reduces [0] S1
  shapeCasts_S1_S1x1 : S1.ShapeCasts S1x1
  shapeCasts_S1x1_S_ : S1x1.ShapeCasts S_
  dot_S512x2304_S2304x128_S512x128_1_0_0_1_n_n_wf : DotDims.WF S512x2304 S2304x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2304.size a ≤ S8192x2304.size a
  hwx0_0 : ∀ i : grid0.Coords, EltTy.bits .f32 = 32 ∨ (Rect.block (s := S8192x2304) S512x2304.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2304.size a ≤ S8192x2304.size a
  hwx0_1 : ∀ i : grid0.Coords, EltTy.bits .f32 = 32 ∨ (Rect.block (s := S8192x2304) S512x2304.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2304.size a ≤ S8192x2304.size a
  hwx0_2 : ∀ i : grid0.Coords, EltTy.bits .f32 = 32 ∨ (Rect.block (s := S8192x2304) S512x2304.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2304x128.size a ≤ S2304x128.size a
  hwx0_3 : ∀ i : grid0.Coords, EltTy.bits .f32 = 32 ∨ (Rect.block (s := S2304x128) S2304x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def dot_S512x2304_S2304x128_S512x128_1_0_0_1_n_n : DotDims S512x2304 S2304x128 S512x128 where
  lhsContracting := [1]
  rhsContracting := [0]
  lhsNonContracting := [0]
  rhsNonContracting := [1]
  lhsBatch := []
  rhsBatch := []
  wf := dot_S512x2304_S2304x128_S512x128_1_0_0_1_n_n_wf

abbrev win0_0 : Pipeline.Window sig grid0 :=
  Pipeline.Window.ofSpec (Memref.whole main_v0) S512x2304.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2304.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x2304.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2304x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x1x48x48 : Shape := ⟨4, ![8192, 1, 48, 48]⟩
abbrev S2304x128 : Shape := ⟨2, ![2304, 128]⟩
abbrev S128 : Shape := ⟨1, ![128]⟩
abbrev S8192x2304 : Shape := ⟨2, ![8192, 2304]⟩
abbrev S8192x128 : Shape := ⟨2, ![8192, 128]⟩
abbrev S1x128 : Shape := ⟨2, ![1, 128]⟩
abbrev S_ : Shape := ⟨0, ![]⟩
abbrev S8192 : Shape := ⟨1, ![8192]⟩

abbrev nBuf : Space → Nat
  | .hbm => 39
  | .vmem => 0
  | .smem => 0
  | _ => 0

abbrev bufTy : (tb : Table) → Fin (tcTables nBuf tb) → BufTy
  | .hbm, ⟨0, _⟩ => ⟨S8192x1x48x48, .f32⟩
  | .hbm, ⟨1, _⟩ => ⟨S8192x1x48x48, .f32⟩
  | .hbm, ⟨2, _⟩ => ⟨S8192x1x48x48, .f32⟩
  | .hbm, ⟨3, _⟩ => ⟨S2304x128, .f32⟩
  | .hbm, ⟨4, _⟩ => ⟨S128, .f32⟩
  | .hbm, ⟨5, _⟩ => ⟨S8192x2304, .f32⟩
  | .hbm, ⟨6, _⟩ => ⟨S8192x128, .f32⟩
  | .hbm, ⟨7, _⟩ => ⟨S1x128, .f32⟩
  | .hbm, ⟨8, _⟩ => ⟨S8192x128, .f32⟩
  | .hbm, ⟨9, _⟩ => ⟨S8192x128, .f32⟩
  | .hbm, ⟨10, _⟩ => ⟨S8192x2304, .f32⟩
  | .hbm, ⟨11, _⟩ => ⟨S8192x128, .f32⟩
  | .hbm, ⟨12, _⟩ => ⟨S1x128, .f32⟩
  | .hbm, ⟨13, _⟩ => ⟨S8192x128, .f32⟩
  | .hbm, ⟨14, _⟩ => ⟨S8192x128, .f32⟩
  | .hbm, ⟨15, _⟩ => ⟨S8192x2304, .f32⟩
  | .hbm, ⟨16, _⟩ => ⟨S8192x128, .f32⟩
  | .hbm, ⟨17, _⟩ => ⟨S1x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S_, .f32⟩
  | .hbm, ⟨23, _⟩ => ⟨S8192, .f32⟩
  | .hbm, ⟨24, _⟩ => ⟨S8192x128, .f32⟩
  | .hbm, ⟨25, _⟩ => ⟨S8192x128, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S8192x1x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_call0_cst : Ref sig .tc := ⟨.hbm, 32, rfl⟩
abbrev main_call0_v0 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  shapeCasts_S8192x1x48x48_S8192x2304 : S8192x1x48x48.ShapeCasts S8192x2304
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x128_S8192_d1 : S8192x128.ReducesTo [1] S8192
  h_S_ : 0 < S_.numel
  bcast_S_S8192 : S_.BroadcastsInDim S8192 (![] : Fin 0 → Fin S8192.rank)
  reducesTo_S8192_S_d0 : S8192.ReducesTo [0] S_
  dot_S8192x2304_S2304x128_S8192x128_1_0_0_1_n_n_wf : DotDims.WF S8192x2304 S2304x128 S8192x128 [1] [0] [0] [1] [] []

variable [Facts₀]

def dot_S8192x2304_S2304x128_S8192x128_1_0_0_1_n_n : DotDims S8192x2304 S2304x128 S8192x128 where
  lhsContracting := [1]
  rhsContracting := [0]
  lhsNonContracting := [0]
  rhsNonContracting := [1]
  lhsBatch := []
  rhsBatch := []
  wf := dot_S8192x2304_S2304x128_S8192x128_1_0_0_1_n_n_wf

class Facts : Prop extends Facts₀ where

variable [Facts]
-- ==== Proof.BodyPieces.lean ====
/-
  What one run of the kernel's body leaves behind, as values. The body keeps a one-entry running total in a scratch
  cell that lives across the grid: at the first grid point it first stores zero there; at every point it computes
  the column of the 512 row losses of the point's blocks, adds the column's sum to the cell; at the last point it
  also writes the cell times 2⁻¹³ to the one-entry output block.

  Three control cases occur (first point / a middle point / last point). In each, the cell ends holding
  "total so far + sum of this point's loss column", the total so far being zero at the first point; in the last
  case the output block holds that new total scaled. The lemmas below say exactly this about the pieces the three
  symbolic runs of the body found, for any float instance.
-/
import proofs.«171102_j88399016886878_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

/-- A middle point: the cell, found at xs0, ends at xs0 + the sum of the point's loss column. -/
theorem cell_mid (c : Dev nD) (i : grid0.Coords) (arg1 : Memref sig .tc .vmem S512x2304 .f32) (harg1 : arg1.IsWhole) (arg2 : Memref sig .tc .vmem S512x2304 .f32) (harg2 : arg2.IsWhole) (arg3 : Memref sig .tc .vmem S512x2304 .f32) (harg3 : arg3.IsWhole) (arg4 : Memref sig .tc .vmem S2304x128 .f32) (harg4 : arg4.IsWhole) (arg5 : Memref sig .tc .vmem S128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 : Vec F S512x2304 .f32) (x1 : Vec F S512x2304 .f32) (x2 : Vec F S512x2304 .f32) (x3 : Vec F S2304x128 .f32) (x4 : Vec F S128 .f32) (xs0 : Vec F S1x1 .f32) :
    sout0_B_0 c i arg1 harg1 arg2 harg2 arg3 harg3 arg4 harg4 arg5 harg5 arg6 harg6 arg7 harg7 hc0 hc1 x0 x1 x2 x3 x4 xs0
      = k0_pay1 (k0_pay4 x0 x1 x2 x3 x4) xs0 := by
  unfold sout0_B_0
  rw [View.read_writes_eq_canon _ _ _ (scover0_B_0 c i arg1 harg1 arg2 harg2 arg3 harg3 arg4 harg4 arg5 harg5 arg6 harg6 arg7 harg7 hc0 hc1 x0 x1 x2 x3 x4 xs0)]
  unfold kernelRun0_B
  dsimp only
  sl_unfold_words
  rw [View.canon_unit_zero hz]
  simp only [View.readAt_eq_ld, harg1.read_unread, harg2.read_unread, harg3.read_unread, harg4.read_unread, harg5.read_unread, harg7.read_unread,
    View.ld_unit_zero (S := S1x1) hz, View.ld_unit_zero (S := S512x2304) hz, View.ld_unit_zero (S := S2304x128) hz, View.ld_unit_zero (S := S128) hz1]

/-- The first point: the cell is first set to zero, read back, and ends at 0 + the sum of the point's loss column. -/
theorem cell_first (c : Dev nD) (i : grid0.Coords) (arg1 : Memref sig .tc .vmem S512x2304 .f32) (harg1 : arg1.IsWhole) (arg2 : Memref sig .tc .vmem S512x2304 .f32) (harg2 : arg2.IsWhole) (arg3 : Memref sig .tc .vmem S512x2304 .f32) (harg3 : arg3.IsWhole) (arg4 : Memref sig .tc .vmem S2304x128 .f32) (harg4 : arg4.IsWhole) (arg5 : Memref sig .tc .vmem S128 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 : Vec F S512x2304 .f32) (x1 : Vec F S512x2304 .f32) (x2 : Vec F S512x2304 .f32) (x3 : Vec F S2304x128 .f32) (x4 : Vec F S128 .f32) :
    sout0_A_0 c i arg1 harg1 arg2 harg2 arg3 harg3 arg4 harg4 arg5 harg5 arg6 harg6 arg7 harg7 hc0 hc1 x0 x1 x2 x3 x4
      = k0_pay1 (k0_pay4 x0 x1 x2 x3 x4) (k0_pay3 (F := F)) := by
  unfold sout0_A_0
  rw [View.read_writes_eq_canon _ _ _ (scover0_A_0 c i arg1 harg1 arg2 harg2 arg3 harg3 arg4 harg4 arg5 harg5 arg6 harg6 arg7 harg7 hc0 hc1 x0 x1 x2 x3 x4)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg7.read_unread,
    View.ld_unit_zero (S := S1x1) hz, View.ld_unit_zero (S := S512x2304) hz, View.ld_unit_zero (S := S2304x128) hz, View.ld_unit_zero (S := S128) hz1]

/-- The last point: the cell ends as at a middle point, -/
theorem cell_last (c : Dev nD) (i : grid0.Coords) (arg1 : Memref sig .tc .vmem S512x2304 .f32) (harg1 : arg1.IsWhole) (arg2 : Memref sig .tc .vmem S512x2304 .f32) (harg2 : arg2.IsWhole) (arg3 : Memref sig .tc .vmem S512x2304 .f32) (harg3 : arg3.IsWhole) (arg4 : Memref sig .tc .vmem S2304x128 .f32) (harg4 : arg4.IsWhole) (arg5 : Memref sig .tc .vmem S128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S512x2304 .f32) (x1 : Vec F S512x2304 .f32) (x2 : Vec F S512x2304 .f32) (x3 : Vec F S2304x128 .f32) (x4 : Vec F S128 .f32) (xs0 : Vec F S1x1 .f32) :
    sout0_C_0 c i arg1 harg1 arg2 harg2 arg3 harg3 arg4 harg4 arg5 harg5 arg6 harg6 arg7 harg7 hc0 hc1 x0 x1 x2 x3 x4 xs0
      = k0_pay1 (k0_pay4 x0 x1 x2 x3 x4) xs0 := by
  unfold sout0_C_0
  rw [View.read_writes_eq_canon _ _ _ (scover0_C_0 c i arg1 harg1 arg2 harg2 arg3 harg3 arg4 harg4 arg5 harg5 arg6 harg6 arg7 harg7 hc0 hc1 x0 x1 x2 x3 x4 xs0)]
  unfold kernelRun0_C
  dsimp only
  sl_unfold_words
  rw [View.canon_unit_zero hz]
  simp only [View.readAt_eq_ld, harg1.read_unread, harg2.read_unread, harg3.read_unread, harg4.read_unread, harg5.read_unread, harg7.read_unread,
    View.ld_unit_zero (S := S1x1) hz, View.ld_unit_zero (S := S512x2304) hz, View.ld_unit_zero (S := S2304x128) hz, View.ld_unit_zero (S := S128) hz1]

/-- and the output block holds the cell's new contents, read back, times the scale. -/
theorem out_last (c : Dev nD) (i : grid0.Coords) (arg1 : Memref sig .tc .vmem S512x2304 .f32) (harg1 : arg1.IsWhole) (arg2 : Memref sig .tc .vmem S512x2304 .f32) (harg2 : arg2.IsWhole) (arg3 : Memref sig .tc .vmem S512x2304 .f32) (harg3 : arg3.IsWhole) (arg4 : Memref sig .tc .vmem S2304x128 .f32) (harg4 : arg4.IsWhole) (arg5 : Memref sig .tc .vmem S128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S512x2304 .f32) (x1 : Vec F S512x2304 .f32) (x2 : Vec F S512x2304 .f32) (x3 : Vec F S2304x128 .f32) (x4 : Vec F S128 .f32) (xs0 : Vec F S1x1 .f32) :
    out0_C_5 c i arg1 harg1 arg2 harg2 arg3 harg3 arg4 harg4 arg5 harg5 arg6 harg6 arg7 harg7 hc0 hc1 x0 x1 x2 x3 x4 xs0
      = k0_pay2 (k0_pay1 (k0_pay4 x0 x1 x2 x3 x4) xs0) := by
  unfold out0_C_5
  rw [View.read_writes_eq_canon _ _ _ (cover0_C_5 c i arg1 harg1 arg2 harg2 arg3 harg3 arg4 harg4 arg5 harg5 arg6 harg6 arg7 harg7 hc0 hc1 x0 x1 x2 x3 x4 xs0)]
  unfold kernelRun0_C
  dsimp only
  sl_unfold_words
  rw [View.canon_unit_zero hz, View.readCov_unit_zero (S := S1x1) _ hz]
  simp only [View.readAt_eq_ld, harg1.read_unread, harg2.read_unread, harg3.read_unread, harg4.read_unread, harg5.read_unread, harg7.read_unread,
    View.ld_unit_zero (S := S1x1) hz, View.ld_unit_zero (S := S512x2304) hz, View.ld_unit_zero (S := S2304x128) hz, View.ld_unit_zero (S := S128) hz1]

end Cert.KernelIdeal.Acc

end
-- ==== Proof.RunningCell.lean ====
/-
  The kernel's running total over the grid. After grid point n the scratch cell holds

      cell n = cell (n − 1) + (the sum of point n's loss column),      cell before point 0 = the stored zero,

  a fold over the sixteen points in order; at the last point (and only there) the output block is written, with the
  cell's contents times 2⁻¹³, and that one block is the whole [1, 1] result array. What the frame run records per
  control case is identified here with that fold by induction on the point (never by listing the points).
-/
import proofs.«171102_j88399016886878_1_alg».proof.Proof.BodyPieces
import Idealize.ShloMosaic.Lib.Pipeline.Value

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ) (ρ : Dev nD → PrngReg)

/-- The loss column of grid point t: the body's column of the point's three image blocks, W and the bias, each as its
    window fetches it. -/
def pointCol (c : Dev nD) (t : Fin cfg0.N) : FVec F S512x1 .f32 :=
  k0_pay4 (iblk m c 0 t) (iblk m c 1 t) (iblk m c 2 t) (iblk m c 3 t) (iblk m c 4 t)

/-- The cell after point n: the fold of the cell's update over the points 0 … n, from the stored zero. -/
def cellAfter (c : Dev nD) : (n : ℕ) → n < cfg0.N → Vec F S1x1 .f32
  | 0, h => k0_pay1 (pointCol m c ⟨0, h⟩) (k0_pay3 (F := F))
  | n + 1, h => k0_pay1 (pointCol m c ⟨n + 1, h⟩) (cellAfter c n (Nat.lt_of_succ_lt h))

/-- After a point that is not the first the cell is the update of what the point before left. -/
theorem cellAfter_pos (c : Dev nD) (t : Fin cfg0.N) (hz : t.val ≠ 0) :
    cellAfter m c t.val t.isLt
      = k0_pay1 (pointCol m c t) (cellAfter m c (t.val - 1) (Nat.lt_of_le_of_lt (Nat.sub_le _ _) t.isLt)) := by
  obtain ⟨n, hn⟩ := t
  cases n with
  | zero => exact absurd rfl hz
  | succ n => rfl

/-- What the frame run records for the scratch cell after point n is the fold. -/
theorem cell_eq (c : Dev nD) : ∀ (n : ℕ) (h : n < cfg0.N), (outsAt0 m c n h).2 = cellAfter m c n h
  | 0, h =>
    (congrArg Prod.snd (outsAt0_A m c ⟨0, h⟩ rfl (by show ¬(0 % 16 = 15); decide))).trans
      (cell_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) ((hcond0_0 ⟨0, h⟩).mpr rfl)
        (fun hh => absurd ((hcond0_1 ⟨0, h⟩).mp hh) (by show ¬(0 % 16 = 15); decide)) (iblk m c 0 ⟨0, h⟩) (iblk m c 1 ⟨0, h⟩) (iblk m c 2 ⟨0, h⟩) (iblk m c 3 ⟨0, h⟩) (iblk m c 4 ⟨0, h⟩))
  | n + 1, h => by
    have hN : cfg0.N = 16 := N_0
    have h0 : ¬(⟨n + 1, h⟩ : Fin cfg0.N).val % 16 = 0 := by dsimp only; omega
    by_cases h1 : (⟨n + 1, h⟩ : Fin cfg0.N).val % 16 = 15
    · refine (congrArg Prod.snd (outsAt0_C m c ⟨n + 1, h⟩ h0 h1)).trans ?_
      refine (cell_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) _).trans ?_
      show k0_pay1 _ (outsAt0 m c n _).2 = k0_pay1 _ (cellAfter m c n _)
      rw [cell_eq c n]
      rfl
    · refine (congrArg Prod.snd (outsAt0_B m c ⟨n + 1, h⟩ h0 h1)).trans ?_
      refine (cell_mid c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) _).trans ?_
      show k0_pay1 _ (outsAt0 m c n _).2 = k0_pay1 _ (cellAfter m c n _)
      rw [cell_eq c n]
      rfl

/-- At the last point the output block holds the cell's new contents times the scale. -/
theorem out_eq (c : Dev nD) (t : Fin cfg0.N) (h15 : t.val % 16 = 15) :
    (outsAt0 m c t.val t.isLt).1 = k0_pay2 (cellAfter m c t.val t.isLt) := by
  have h0 : ¬t.val % 16 = 0 := by omega
  have hz : t.val ≠ 0 := by omega
  refine (congrArg Prod.fst (outsAt0_C m c t h0 h15)).trans ?_
  refine (out_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h15) (iblk m c 0 t) (iblk m c 1 t) (iblk m c 2 t) (iblk m c 3 t) (iblk m c 4 t) _).trans ?_
  rw [cellAfter_pos m c t hz, cell_eq m c (t.val - 1)]
  rfl

/-- The [1, 1] result array after the region: the cell after the last point, scaled. -/
def result (c : Dev nD) : Buf (Elt F) ((c : Thread nD τ).loc main_v3) :=
  k0_pay2 (cellAfter m c t0_15.val t0_15.isLt)

/-- The one write-back, at point 15, writes it: block (0, 0) of the [1, 1] array is the array. -/
theorem flushed_eq (c : Dev nD) (t : Fin cfg0.N) (hf : (cfg0.win 5).flush t = true) :
    (dats m 0 c).flushed 5 t = ((cfg0.win 5).blk t).view.read (Elt F) (result m c) := by
  have hN : cfg0.N = 16 := N_0
  have h15 : t.val = 15 := by have := (flush0_5 t).mp hf; have := t.isLt; omega
  obtain rfl : t = t0_15 := Fin.ext h15
  show (cfg0.win 5).cut (grid0.coords t0_15) ((dats m 0 c).after 5 t0_15) = _
  rw [after0_5, out_eq m c t0_15 (by decide)]
  have hz' : (fun a => win0_5.index t0_15 a * main_v3.ty.shape.size a) = fun _ => 0 := funext fun a => by fin_cases a <;> decide
  exact (Memref.read_access_unit_zero (Elt F) main_v3 hz' (fun a => by rw [congrFun hz' a]; simp) (result m c)).symm

/-- So the result array ends holding it: point 15's block covers the one entry. -/
theorem final_out (c : Dev nD) : (dats m 0 c).arrAt 5 cfg0.N = result m c :=
  (dats m 0 c).arrAt_eq_of_cover 5 (result m c) (flushed_eq m c) fun i =>
    ⟨t0_15, (flush0_5 t0_15).mpr (by decide), by
      show i ∈ ((View.whole main_v3).slice (win0_5.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_5.index t0_15 0 * win0_5.size 0 ≤ (i 0 : Nat) ∧ (i 0 : Nat) < win0_5.index t0_15 0 * win0_5.size 0 + win0_5.xsize (grid0.coords t0_15) 0
                  rw [show win0_5.index t0_15 0 * win0_5.size 0 = 0 from by decide +kernel, show win0_5.xsize (grid0.coords t0_15) 0 = 1 from by decide +kernel]; omega
      | ⟨1, _⟩ => show win0_5.index t0_15 1 * win0_5.size 1 ≤ (i 1 : Nat) ∧ (i 1 : Nat) < win0_5.index t0_15 1 * win0_5.size 1 + win0_5.xsize (grid0.coords t0_15) 1
                  rw [show win0_5.index t0_15 1 * win0_5.size 1 = 0 from by decide +kernel, show win0_5.xsize (grid0.coords t0_15) 1 = 1 from by decide +kernel]; omega⟩

end Cert.KernelIdeal.Acc

end
-- ==== Proof.KernelRun.lean ====
/-
  The kernel's program around its region, read as values (any float instance).

  Before the region the host flattens each of the three image batches [8192, 1, 48, 48] to a matrix [8192, 2304]; the
  region's windows cut those matrices into sixteen blocks of 512 consecutive rows (grid point t fetches rows
  512·t … 512·t + 511, all 2304 columns) and fetch W and the bias whole; after the region the host drops the two unit
  axes of the [1, 1] result. So: a block's entry (r, k) at point t is the matrix's entry (512·t + r, k); the program's
  result is the region's one entry; and the argument arrays end as they began.
-/
import proofs.«171102_j88399016886878_1_alg».proof.Proof.RunningCell
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ) (ρ : Dev nD → PrngReg)

/-! ## Where the blocks sit -/

/-- The windows' block indices at grid point t: the three image windows walk down the rows (block t, column block 0),
    W and the bias stay at their one block. Decided once over the sixteen points. -/
theorem idx_facts : ∀ t : Fin cfg0.N, win0_0.index t 0 = t.val ∧ win0_0.index t 1 = 0 ∧ win0_1.index t 0 = t.val ∧ win0_1.index t 1 = 0
    ∧ win0_2.index t 0 = t.val ∧ win0_2.index t 1 = 0 ∧ win0_3.index t 0 = 0 ∧ win0_3.index t 1 = 0 ∧ win0_4.index t 0 = 0 :=
  (by decide +kernel : ∀ t : Fin grid0.N, win0_0.index t 0 = t.val ∧ win0_0.index t 1 = 0 ∧ win0_1.index t 0 = t.val ∧ win0_1.index t 1 = 0
    ∧ win0_2.index t 0 = t.val ∧ win0_2.index t 1 = 0 ∧ win0_3.index t 0 = 0 ∧ win0_3.index t 1 = 0 ∧ win0_4.index t 0 = 0)

/-- Entry (r, k) of the anchors' block at point t is entry (512·t + r, k) of the flattened anchors. -/
theorem anchorBlock_apply (c : Dev nD) (t : Fin cfg0.N) (r : Fin 512) (k : Fin 2304) (R : Fin 8192) (hR : R.val = r.val + 512 * t.val) :
    (iblk m c 0 t : Vec F S512x2304 .f32) (ix2 r k) = (V m c main_v0 : S8192x2304.Idx → Elt F .f32) (ix2 R k) := by
  unfold iblk
  rw [View.read_apply]
  show (V m c main_v0 : S8192x2304.Idx → Elt F .f32) _ = _
  refine congrArg (V m c main_v0 : S8192x2304.Idx → Elt F .f32) ?_
  funext a
  apply Fin.ext
  match a with
  | ⟨0, _⟩ => show win0_0.index t 0 * 512 + 1 * r.val = R.val
              rw [(idx_facts t).1, hR]; omega
  | ⟨1, _⟩ => show win0_0.index t 1 * 2304 + 1 * k.val = k.val
              rw [(idx_facts t).2.1]; omega

/-- The same for the positives' block. -/
theorem posBlock_apply (c : Dev nD) (t : Fin cfg0.N) (r : Fin 512) (k : Fin 2304) (R : Fin 8192) (hR : R.val = r.val + 512 * t.val) :
    (iblk m c 1 t : Vec F S512x2304 .f32) (ix2 r k) = (V m c main_v1 : S8192x2304.Idx → Elt F .f32) (ix2 R k) := by
  unfold iblk
  rw [View.read_apply]
  show (V m c main_v1 : S8192x2304.Idx → Elt F .f32) _ = _
  refine congrArg (V m c main_v1 : S8192x2304.Idx → Elt F .f32) ?_
  funext a
  apply Fin.ext
  match a with
  | ⟨0, _⟩ => show win0_1.index t 0 * 512 + 1 * r.val = R.val
              rw [(idx_facts t).2.2.1, hR]; omega
  | ⟨1, _⟩ => show win0_1.index t 1 * 2304 + 1 * k.val = k.val
              rw [(idx_facts t).2.2.2.1]; omega

/-- The same for the negatives' block. -/
theorem negBlock_apply (c : Dev nD) (t : Fin cfg0.N) (r : Fin 512) (k : Fin 2304) (R : Fin 8192) (hR : R.val = r.val + 512 * t.val) :
    (iblk m c 2 t : Vec F S512x2304 .f32) (ix2 r k) = (V m c main_v2 : S8192x2304.Idx → Elt F .f32) (ix2 R k) := by
  unfold iblk
  rw [View.read_apply]
  show (V m c main_v2 : S8192x2304.Idx → Elt F .f32) _ = _
  refine congrArg (V m c main_v2 : S8192x2304.Idx → Elt F .f32) ?_
  funext a
  apply Fin.ext
  match a with
  | ⟨0, _⟩ => show win0_2.index t 0 * 512 + 1 * r.val = R.val
              rw [(idx_facts t).2.2.2.2.1, hR]; omega
  | ⟨1, _⟩ => show win0_2.index t 1 * 2304 + 1 * k.val = k.val
              rw [(idx_facts t).2.2.2.2.2.1]; omega

/-- W's one block is W. -/
theorem weightBlock_apply (c : Dev nD) (t : Fin cfg0.N) (k : Fin 2304) (e : Fin 128) :
    (iblk m c 3 t : Vec F S2304x128 .f32) (ix2 k e) = (V m c main_arg3 : S2304x128.Idx → Elt F .f32) (ix2 k e) := by
  unfold iblk
  rw [View.read_apply]
  show (V m c main_arg3 : S2304x128.Idx → Elt F .f32) _ = _
  refine congrArg (V m c main_arg3 : S2304x128.Idx → Elt F .f32) ?_
  funext a
  apply Fin.ext
  match a with
  | ⟨0, _⟩ => show win0_3.index t 0 * 2304 + 1 * k.val = k.val
              rw [(idx_facts t).2.2.2.2.2.2.1]; omega
  | ⟨1, _⟩ => show win0_3.index t 1 * 128 + 1 * e.val = e.val
              rw [(idx_facts t).2.2.2.2.2.2.2.1]; omega

/-- The bias's one block is the bias. -/
theorem biasBlock_apply (c : Dev nD) (t : Fin cfg0.N) (e : Fin 128) :
    (iblk m c 4 t : Vec F S128 .f32) (ix1 e) = (V m c main_arg4 : S128.Idx → Elt F .f32) (ix1 e) := by
  unfold iblk
  rw [View.read_apply]
  show (V m c main_arg4 : S128.Idx → Elt F .f32) _ = _
  refine congrArg (V m c main_arg4 : S128.Idx → Elt F .f32) ?_
  funext a
  apply Fin.ext
  match a with
  | ⟨0, _⟩ => show win0_4.index t 0 * 128 + 1 * e.val = e.val
              rw [(idx_facts t).2.2.2.2.2.2.2.2]; omega

/-! ## The arrays the region finds -/

/-- The region finds the anchors flattened. -/
theorem V_anchor (c : Dev nD) : (V m c main_v0 : S8192x2304.Idx → Elt F .f32)
    = shapeCast S8192x2304 (m ((c : Thread nD τ).loc main_arg0)) shapeCasts_S8192x1x48x48_S8192x2304 := by
  show StableHlo.after hostOps0 (fun b => m (c, b)) (Proc.devRef .tc main_v0) = _
  after_results
  rfl

/-- The region finds the positives flattened. -/
theorem V_pos (c : Dev nD) : (V m c main_v1 : S8192x2304.Idx → Elt F .f32)
    = shapeCast S8192x2304 (m ((c : Thread nD τ).loc main_arg1)) shapeCasts_S8192x1x48x48_S8192x2304 := by
  show StableHlo.after hostOps0 (fun b => m (c, b)) (Proc.devRef .tc main_v1) = _
  after_results
  rfl

/-- The region finds the negatives flattened. -/
theorem V_neg (c : Dev nD) : (V m c main_v2 : S8192x2304.Idx → Elt F .f32)
    = shapeCast S8192x2304 (m ((c : Thread nD τ).loc main_arg2)) shapeCasts_S8192x1x48x48_S8192x2304 := by
  show StableHlo.after hostOps0 (fun b => m (c, b)) (Proc.devRef .tc main_v2) = _
  after_results
  rfl

/-! ## After the region -/

/-- The program's result: the region's [1, 1] array with its two unit axes dropped. -/
theorem tail_eq (c : Dev nD) :
    Pipeline.afterTail₀ cfgs (dats m) 0 (V0 m) [hostOps1] c main_v4
      = shapeCast S_ (result m c) shapeCasts_S1x1_S_ := by
  have e : Pipeline.withArrays (cfgs 0).spec c (V0 m c) (fun w => (dats m 0 c).arrAt w (cfgs 0).N) (Proc.devRef .tc main_v3)
      = result m c :=
    (Pipeline.withArrays_arr spec0 launch0.win.arr_inj c (V0 m c) _ 5).trans (final_out m c)
  unfold Pipeline.afterTail₀
  show StableHlo.after hostOps1 _ (Proc.devRef .tc main_v4) = _
  after_results
  funext i
  show shapeCast S_ (Pipeline.withArrays (cfgs 0).spec c (V0 m c) (fun w => (dats m 0 c).arrAt w (cfgs 0).N)
    (Proc.devRef .tc main_v3)) shapeCasts_S1x1_S_ i = _
  rw [e]

/-- The run, read: every weakly fair execution ends with the result at the region's entry, the arguments unchanged. -/
theorem run : θ_run defs (onTc (τ := τ) (main (F := F))) ⟨m, fun _ => 0, ρ⟩ fun r => ∀ c : Dev nD,
      r.2.mem ((c.tc : Thread nD τ).loc main_v4) = shapeCast S_ (result m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Acc

end
-- ==== Proof.TripletSpec.lean ====
/-
  The mathematics of the triplet-margin loss, with no program in sight.

  A batch holds R rows; row r of each of three [R, K] matrices (anchor, positive, negative) is embedded by one linear
  map, e ↦ (∑ k, X(r, k) · W(k, e)) + b(e), into E coordinates. The loss of row r is the hinge
      max ((‖emb A r − emb P r‖² − ‖emb A r − emb N r‖²) + margin) 0,
  with the squared distance the plain sum of the squared coordinate differences, and the batch loss is the mean of the
  row losses. Everything is an extended real; no law used here needs a finite value:

  * the row loss only depends on row r of the three matrices (and on W, b), so a block of rows cut out of a larger
    matrix has the same row losses as the rows it was cut from;
  * a running total started at 0 and fed one block sum after another ends at the sum of all block sums, and a sum over
    16 blocks of 512 rows is the sum over all 8192 rows (addition of extended reals is commutative and associative);
  * dividing by 8192 is multiplying by 2⁻¹³, at the infinities too.
-/
import Idealize.ShloMosaic.PureOps.Ideal
import Idealize.ShloMosaic.Lib.ValueIdx
import Mathlib.Algebra.BigOperators.Fin
import Mathlib.Logic.Equiv.Fin.Basic

noncomputable section

namespace Cert.Triplet

open Idealize.ShloMosaic Idealize.ShloMosaic.ValueIdx
open scoped BigOperators

/-! ## The row loss -/

/-- Coordinate e of the embedding of row r: (∑ k, X(r, k) · W(k, e)) + b(e). -/
def embed {R K E : ℕ} (X : (⟨2, ![R, K]⟩ : Shape).Idx → EReal) (W : (⟨2, ![K, E]⟩ : Shape).Idx → EReal)
    (b : (⟨1, ![E]⟩ : Shape).Idx → EReal) (r : Fin R) (e : Fin E) : EReal :=
  (∑ k : Fin K, X (ix2 r k) * W (ix2 k e)) + b (ix1 e)

/-- The squared distance between the embeddings of row r of X and of row r of Y. -/
def sqDist {R K E : ℕ} (X Y : (⟨2, ![R, K]⟩ : Shape).Idx → EReal) (W : (⟨2, ![K, E]⟩ : Shape).Idx → EReal)
    (b : (⟨1, ![E]⟩ : Shape).Idx → EReal) (r : Fin R) : EReal :=
  ∑ e : Fin E, (embed X W b r e - embed Y W b r e) * (embed X W b r e - embed Y W b r e)

/-- The hinge loss of row r: how much closer (by the margin) the anchor is to the negative than to the positive. -/
def rowLoss {R K E : ℕ} (margin : EReal) (A P N : (⟨2, ![R, K]⟩ : Shape).Idx → EReal)
    (W : (⟨2, ![K, E]⟩ : Shape).Idx → EReal) (b : (⟨1, ![E]⟩ : Shape).Idx → EReal) (r : Fin R) : EReal :=
  max ((sqDist A P W b r - sqDist A N W b r) + margin) 0

/-- The row loss reads row r of the three matrices and nothing else of them: if row r of (A, P, N) is row r' of
    (A', P', N'), and the weights and the bias agree, the two row losses are equal. -/
theorem rowLoss_congr {R R' K E : ℕ} (margin : EReal)
    (A P N : (⟨2, ![R, K]⟩ : Shape).Idx → EReal) (A' P' N' : (⟨2, ![R', K]⟩ : Shape).Idx → EReal)
    (W W' : (⟨2, ![K, E]⟩ : Shape).Idx → EReal) (b b' : (⟨1, ![E]⟩ : Shape).Idx → EReal) (r : Fin R) (r' : Fin R')
    (hA : ∀ k, A (ix2 r k) = A' (ix2 r' k)) (hP : ∀ k, P (ix2 r k) = P' (ix2 r' k))
    (hN : ∀ k, N (ix2 r k) = N' (ix2 r' k)) (hW : ∀ k e, W (ix2 k e) = W' (ix2 k e)) (hb : ∀ e, b (ix1 e) = b' (ix1 e)) :
    rowLoss margin A P N W b r = rowLoss margin A' P' N' W' b' r' := by
  simp only [rowLoss, sqDist, embed, hA, hP, hN, hW, hb]

/-! ## Totals -/

/-- A running total: started at z, fed T 0, then T 1, … -/
def running (z : EReal) (T : ℕ → EReal) : ℕ → EReal
  | 0 => z + T 0
  | n + 1 => running z T n + T (n + 1)

/-- Started at 0 the running total after block n is the sum of the blocks 0 … n. -/
theorem running_zero (T : ℕ → EReal) (n : ℕ) : running 0 T n = ∑ t ∈ Finset.range (n + 1), T t := by
  induction n with
  | zero => simp [running]
  | succ n ih => rw [running, ih, Finset.sum_range_succ _ (n + 1)]

/-- Row i of block t is a row of the batch. -/
theorem row_lt (t : Fin 16) (i : Fin 512) : i.val + 512 * t.val < 8192 := by
  have := t.isLt; have := i.isLt; omega

/-- The sum over the 8192 rows, block by block: 16 blocks of 512 rows. -/
theorem sum_rows_blocks (f : Fin 8192 → EReal) :
    ∑ j : Fin 8192, f j = ∑ t : Fin 16, ∑ i : Fin 512, f ⟨i.val + 512 * t.val, row_lt t i⟩ := by
  rw [← (finProdFinEquiv (m := 16) (n := 512)).sum_comp f, Fintype.sum_prod_type]
  rfl

/-! ## The two float words of the mean -/

/-- The word of 8192.0 denotes the real 8192. -/
theorem ofBits_8192 : Ideal.ofBits .f32 0x46000000#32 = ((8192 : ℝ) : EReal) := by
  simp [Ideal.ofBits, Ideal.ieee, -EReal.coe_mul]; norm_num

/-- The word of 2⁻¹³ = 1/8192 denotes that fraction exactly (a power of two). -/
theorem ofBits_inv8192 : Ideal.ofBits .f32 0x39000000#32 = ((1 / 8192 : ℝ) : EReal) := by
  simp [Ideal.ofBits, Ideal.ieee, -EReal.coe_mul]; norm_num

/-- The mean two ways: the total divided by 8192 (started from the zero word) is the total times 2⁻¹³. -/
theorem mean_eq (s : EReal) :
    Ideal.div (Ideal.ofBits .f32 0x00000000#32 + s) (Ideal.ofBits .f32 0x46000000#32)
      = s * Ideal.ofBits .f32 0x39000000#32 := by
  rw [ofBits_8192, ofBits_inv8192, Ideal.div_coe (by norm_num : (8192 : ℝ) ≠ 0)]
  simp [Ideal.ofBits, Ideal.ieee]

end Cert.Triplet

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.PointLoss.lean ====
/-
  The arithmetic of one grid point, at the exact instance (floats are extended reals, every operation the textbook one,
  a change of float format the identity).

  The body's loss column is written once in a small vocabulary — the embedding of a block (the block times W on the
  matrix unit into a zero accumulator, plus the bias row broadcast over the 512 rows), the column of squared distances
  of two embeddings (a lane sum of squared differences, kept as a column), the hinge of two such columns — and then
  read at row r: it is the row loss of row r of the three blocks. The cell update adds the column's 512 entries to
  the cell; the final scaling multiplies the cell by the word of 2⁻¹³; the reset stores the zero word.
-/
import proofs.«171102_j88399016886878_1_alg».proof.Proof.Gen.KernelIdeal.Skeleton
import proofs.«171102_j88399016886878_1_alg».proof.Proof.TripletSpec
import proofs.«171102_j88399016886878_1_alg».proof.Proof.LibMatmulRows
import proofs.«171102_j88399016886878_1_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Acc

open Cert.KernelIdeal Cert.KernelIdeal.Gen

/-! ## The body's loss column in a small vocabulary (any float instance) -/

section vocabulary
variable {F : FTy → Type} [FloatOps F]

/-- The embedding of a block of 512 rows: block · W into a zero accumulator (both rounded to bf16 on the way in), plus
    the bias as one row broadcast over the rows. -/
def embBlock (x : Vec F S512x2304 .f32) (w : Vec F S2304x128 .f32) (b : Vec F S128 .f32) : FVec F S512x128 .f32 :=
  addf (matmul dot_S512x2304_S2304x128_S512x128_1_0_0_1_n_n none
      (truncf .bf16 (shapeCast S512x2304 x shapeCasts_S512x2304_S512x2304) bitsLt_bf16_f32) (truncf .bf16 w bitsLt_bf16_f32)
      (constant S512x128 .f32 0x00000000#32))
    (broadcastTo S512x128 (shapeCast S1x128 b shapeCasts_S128_S1x128) broadcasts_S1x128_S512x128)

/-- The column of squared distances between the rows of two embeddings. -/
def sqCol (u v : FVec F S512x128 .f32) : FVec F S512x1 .f32 :=
  shapeCast S512x1 (multiReduction .add [1] S512 (mulf (subf u v) (subf u v)) 0x00000000#32 reduces_S512x128_S512 (.inl rfl) rfl)
    shapeCasts_S512_S512x1

/-- The hinge of two columns: max ((d1 − d2) + margin) 0, entry by entry. -/
def hingeCol (d1 d2 : FVec F S512x1 .f32) : FVec F S512x1 .f32 :=
  maximumf (addf (subf d1 d2) (broadcast S512x1 (Scalar.ofBits .f32 0x3E4CCCCD#32))) (broadcast S512x1 (Scalar.ofBits .f32 0x00000000#32))

/-- The body's loss column is the hinge of the two squared-distance columns of the three embeddings. -/
theorem lossCol_eq (x0 x1 x2 : Vec F S512x2304 .f32) (x3 : Vec F S2304x128 .f32) (x4 : Vec F S128 .f32) :
    k0_pay4 x0 x1 x2 x3 x4
      = hingeCol (sqCol (embBlock x0 x3 x4) (embBlock x1 x3 x4)) (sqCol (embBlock x0 x3 x4) (embBlock x2 x3 x4)) := rfl

end vocabulary

/-! ## Read at a row, at the exact instance -/

/-- The margin of the hinge, the f32 word nearest 0.2, as the extended real it denotes. -/
abbrev margin : EReal := Ideal.ofBits .f32 0x3E4CCCCD#32

theorem dot_l0 (i : S512x128.Idx) (q : dot_S512x2304_S2304x128_S512x128_1_0_0_1_n_n.contr.Idx) :
    (dot_S512x2304_S2304x128_S512x128_1_0_0_1_n_n.lhsIdx i q 0).val = (i 0).val := by
  unfold DotDims.lhsIdx
  rw [dif_neg (show ¬(0 : Fin S512x2304.rank) ∈ dot_S512x2304_S2304x128_S512x128_1_0_0_1_n_n.lhsBatch by decide),
    dif_pos (show (0 : Fin S512x2304.rank) ∈ dot_S512x2304_S2304x128_S512x128_1_0_0_1_n_n.lhsNonContracting by decide)]
  rfl
theorem dot_l1 (i : S512x128.Idx) (q : dot_S512x2304_S2304x128_S512x128_1_0_0_1_n_n.contr.Idx) :
    (dot_S512x2304_S2304x128_S512x128_1_0_0_1_n_n.lhsIdx i q 1).val = (q ⟨0, by decide⟩).val :=
  dot_S512x2304_S2304x128_S512x128_1_0_0_1_n_n.lhsIdx_val_of_single rfl i q
theorem dot_r0 (i : S512x128.Idx) (q : dot_S512x2304_S2304x128_S512x128_1_0_0_1_n_n.contr.Idx) :
    (dot_S512x2304_S2304x128_S512x128_1_0_0_1_n_n.rhsIdx i q 0).val = (q ⟨0, by decide⟩).val :=
  dot_S512x2304_S2304x128_S512x128_1_0_0_1_n_n.rhsIdx_val_of_single rfl i q
theorem dot_r1 (i : S512x128.Idx) (q : dot_S512x2304_S2304x128_S512x128_1_0_0_1_n_n.contr.Idx) :
    (dot_S512x2304_S2304x128_S512x128_1_0_0_1_n_n.rhsIdx i q 1).val = (i 1).val := by
  unfold DotDims.rhsIdx
  rw [dif_neg (show ¬(1 : Fin S2304x128.rank) ∈ dot_S512x2304_S2304x128_S512x128_1_0_0_1_n_n.rhsBatch by decide),
    dif_pos (show (1 : Fin S2304x128.rank) ∈ dot_S512x2304_S2304x128_S512x128_1_0_0_1_n_n.rhsNonContracting by decide)]
  rfl

/-- Entry (r, e) of a block's embedding: (∑ k, x(r, k) · w(k, e)) + b(e). -/
theorem embBlock_apply (x : FVec Ideal S512x2304 .f32) (w : FVec Ideal S2304x128 .f32) (b : FVec Ideal S128 .f32)
    (r : Fin 512) (e : Fin 128) : embBlock (F := Ideal) x w b (ix2 r e) = Cert.Triplet.embed x w b r e := by
  unfold embBlock
  rw [addf_apply, Cert.LibMatmulRows.matmul_rows dot_S512x2304_S2304x128_S512x128_1_0_0_1_n_n rfl rfl dot_l0 dot_l1 dot_r0 dot_r1,
    broadcastTo_1b_ab_apply, shapeCast_a_1a_apply]
  simp only [truncf_apply, shapeCast_self, Cert.Triplet.embed]

/-- Entry r of the squared-distance column: the sum over the 128 lanes of the squared differences. -/
theorem sqCol_apply (u v : FVec Ideal S512x128 .f32) (r : Fin 512) :
    sqCol (F := Ideal) u v (ix2 r (0 : Fin 1)) = ∑ e : Fin 128, (u (ix2 r e) - v (ix2 r e)) * (u (ix2 r e) - v (ix2 r e)) := by
  unfold sqCol
  rw [Cert.LibLayout.shapeCast_a_a1_apply]
  exact Cert.LibLayout.laneSum_apply _ reduces_S512x128_S512 (.inl rfl) rfl r

/-- Row r of the body's loss column is the row loss of row r of the point's three blocks. -/
theorem lossCol_apply (x0 x1 x2 : FVec Ideal S512x2304 .f32) (x3 : FVec Ideal S2304x128 .f32) (x4 : FVec Ideal S128 .f32) (r : Fin 512) :
    k0_pay4 (F := Ideal) x0 x1 x2 x3 x4 (ix2 r (0 : Fin 1)) = Cert.Triplet.rowLoss margin x0 x1 x2 x3 x4 r := by
  rw [lossCol_eq]
  show max ((sqCol (F := Ideal) _ _ (ix2 r (0 : Fin 1)) - sqCol (F := Ideal) _ _ (ix2 r (0 : Fin 1))) + Ideal.ofBits .f32 0x3E4CCCCD#32)
      (Ideal.ofBits .f32 0x00000000#32) = _
  rw [sqCol_apply, sqCol_apply, Ideal.ofBits_zero_f32]
  simp only [embBlock_apply, Cert.Triplet.rowLoss, Cert.Triplet.sqDist]

/-! ## The cell's update, the scaling and the reset -/

/-- The cell after a point: its contents before plus the sum of the 512 entries of the loss column. -/
theorem cellUpdate_apply (col : FVec Ideal S512x1 .f32) (cell : FVec Ideal S1x1 .f32) :
    k0_pay1 (F := Ideal) col cell (ix2 (0 : Fin 1) (0 : Fin 1)) = cell (ix2 (0 : Fin 1) (0 : Fin 1)) + ∑ r : Fin 512, col (ix2 r (0 : Fin 1)) := by
  unfold k0_pay1
  dsimp only
  rw [shapeCast_self]
  show cell (ix2 (0 : Fin 1) (0 : Fin 1)) + shapeCast S1x1 _ shapeCasts_S1_S1x1 (ix2 (0 : Fin 1) (0 : Fin 1)) = _
  rw [Cert.LibLayout.shapeCast_a_a1_apply]
  refine congrArg (cell (ix2 (0 : Fin 1) (0 : Fin 1)) + ·) ?_
  refine (Ideal.multiReduction_add_single col 0x00000000#32 reduces_S512x1_S1 (.inl rfl) rfl (ix1 (0 : Fin 1))).trans ?_
  refine Finset.sum_congr rfl fun k _ => congrArg col ?_
  funext a
  refine Fin.ext ?_
  match a with
  | ⟨0, _⟩ => rfl
  | ⟨1, _⟩ => rfl

/-- The output: the cell times the word of 2⁻¹³. -/
theorem scale_apply (cell : FVec Ideal S1x1 .f32) (j : S1x1.Idx) :
    k0_pay2 (F := Ideal) cell j = cell j * Ideal.ofBits .f32 0x39000000#32 := rfl

/-- The reset stores the zero word, the extended real 0. -/
theorem reset_apply (j : S1x1.Idx) : k0_pay3 (F := Ideal) j = 0 := by
  unfold k0_pay3
  rw [shapeCast_self]
  exact Ideal.ofBits_zero_f32

end Cert.KernelIdeal.Acc

end
-- ==== Proof.KernelValue.lean ====
/-
  The kernel's result at the exact instance, as one formula of the argument arrays: the sum over all 8192 rows of the
  row loss of the three flattened image batches (with W and the bias), times 2⁻¹³.

  Point t's loss column holds the row losses of rows 512·t … 512·t + 511 (its blocks are those rows of the flattened
  batches); the cell's fold over the sixteen points, started at zero, is therefore the sum of the sixteen block sums,
  which is the sum over all rows — addition of extended reals is commutative and associative, so no finiteness of the
  inputs is used; the output is that total times the word of 2⁻¹³, and the program returns it with its unit axes dropped.
-/
import proofs.«171102_j88399016886878_1_alg».proof.Proof.KernelRun
import proofs.«171102_j88399016886878_1_alg».proof.Proof.PointLoss
import proofs.«171102_j88399016886878_1_alg».proof.Proof.TripletSpec
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen

variable (m : (ℓ : Loc nD τ sig) → Buf (Elt Ideal) ℓ)

/-- The row loss of row R of the batch, from the argument arrays as the program was launched with them. -/
def batchLoss (c : Dev nD) (R : Fin 8192) : EReal :=
  Cert.Triplet.rowLoss margin
    (shapeCast S8192x2304 (m ((c : Thread nD τ).loc main_arg0)) shapeCasts_S8192x1x48x48_S8192x2304)
    (shapeCast S8192x2304 (m ((c : Thread nD τ).loc main_arg1)) shapeCasts_S8192x1x48x48_S8192x2304)
    (shapeCast S8192x2304 (m ((c : Thread nD τ).loc main_arg2)) shapeCasts_S8192x1x48x48_S8192x2304)
    (m ((c : Thread nD τ).loc main_arg3)) (m ((c : Thread nD τ).loc main_arg4)) R

/-- Row r of point t's loss column is the row loss of row 512·t + r of the batch. -/
theorem pointCol_row (c : Dev nD) (t : Fin cfg0.N) (r : Fin 512) (R : Fin 8192) (hR : R.val = r.val + 512 * t.val) :
    pointCol m c t (ix2 r (0 : Fin 1)) = batchLoss m c R := by
  unfold pointCol batchLoss
  refine (lossCol_apply (iblk m c 0 t) (iblk m c 1 t) (iblk m c 2 t) (iblk m c 3 t) (iblk m c 4 t) r).trans ?_
  refine Cert.Triplet.rowLoss_congr margin (iblk m c 0 t) (iblk m c 1 t) (iblk m c 2 t) _ _ _ (iblk m c 3 t) _ (iblk m c 4 t) _ r R
    (fun k => ?_) (fun k => ?_) (fun k => ?_) (fun k e => ?_) (fun e => ?_)
  · exact (anchorBlock_apply m c t r k R hR).trans (congrFun (V_anchor m c) _)
  · exact (posBlock_apply m c t r k R hR).trans (congrFun (V_pos m c) _)
  · exact (negBlock_apply m c t r k R hR).trans (congrFun (V_neg m c) _)
  · exact (weightBlock_apply m c t k e).trans (congrFun (V_main_arg3 m c) _)
  · exact (biasBlock_apply m c t e).trans (congrFun (V_main_arg4 m c) _)

/-- The sum of point n's loss column (0 past the grid). -/
def pointSum (c : Dev nD) (n : ℕ) : EReal :=
  if h : n < cfg0.N then ∑ r : Fin 512, pointCol m c ⟨n, h⟩ (ix2 r (0 : Fin 1)) else 0

/-- The cell after point n is the running total of the point sums from zero. -/
theorem cell_total (c : Dev nD) : ∀ (n : ℕ) (h : n < cfg0.N),
    cellAfter m c n h (ix2 (0 : Fin 1) (0 : Fin 1)) = Cert.Triplet.running 0 (pointSum m c) n
  | 0, h => by
    show k0_pay1 (F := Ideal) (pointCol m c ⟨0, h⟩) (k0_pay3 (F := Ideal)) (ix2 (0 : Fin 1) (0 : Fin 1)) = _
    rw [cellUpdate_apply, reset_apply, Cert.Triplet.running, pointSum, dif_pos h]
  | n + 1, h => by
    show k0_pay1 (F := Ideal) (pointCol m c ⟨n + 1, h⟩) (cellAfter m c n (Nat.lt_of_succ_lt h)) (ix2 (0 : Fin 1) (0 : Fin 1)) = _
    rw [cellUpdate_apply, cell_total c n, Cert.Triplet.running, pointSum, dif_pos h]

/-- Point t's sum is the sum of the row losses of block t of the batch. -/
theorem pointSum_eq (c : Dev nD) (t : Fin 16) :
    pointSum m c t.val = ∑ r : Fin 512, batchLoss m c ⟨r.val + 512 * t.val, Cert.Triplet.row_lt t r⟩ := by
  have hN : cfg0.N = 16 := N_0
  have ht : t.val < cfg0.N := by rw [hN]; exact t.isLt
  rw [pointSum, dif_pos ht]
  exact Finset.sum_congr rfl fun r _ => pointCol_row m c ⟨t.val, ht⟩ r _ rfl

/-- The region's one entry: the sum of all 8192 row losses times 2⁻¹³. -/
theorem result_total (c : Dev nD) :
    result m c (ix2 (0 : Fin 1) (0 : Fin 1)) = (∑ R : Fin 8192, batchLoss m c R) * Ideal.ofBits .f32 0x39000000#32 := by
  unfold result
  rw [scale_apply, cell_total m c t0_15.val t0_15.isLt, Cert.Triplet.running_zero]
  have h16 : t0_15.val + 1 = 16 := rfl
  rw [h16, Finset.sum_range, Cert.Triplet.sum_rows_blocks]
  exact congrArg (· * Ideal.ofBits .f32 0x39000000#32) (Finset.sum_congr rfl fun t _ => pointSum_eq m c t)

/-- The program's result, a scalar: that total. -/
theorem value_eq (c : Dev nD) :
    shapeCast S_ (result m c) shapeCasts_S1x1_S_
      = fun _ => (∑ R : Fin 8192, batchLoss m c R) * Ideal.ofBits .f32 0x39000000#32 := by
  funext j
  refine (shapeCast_apply (result m c) shapeCasts_S1x1_S_ j (ix2 (0 : Fin 1) (0 : Fin 1)) ?_).trans (result_total m c)
  have hj : (S_.rowMajor j).val < 1 := (S_.rowMajor j).isLt
  show (S1x1.rowMajor (ix2 (0 : Fin 1) (0 : Fin 1))).val = (S_.rowMajor j).val
  rw [Shape.rowMajor_val_two]
  show 0 * 1 + 0 = (S_.rowMajor j).val
  omega

end Cert.KernelIdeal.Acc

end
-- ==== Proof.RefLoss.lean ====
/-
  The reference's side: its straight line of host operations, read one operation at a time at an index, computes for
  every row r of the batch the hinge loss of that row of the three flattened image matrices, and returns the sum of the
  8192 row losses (started from the zero word) divided by 8192 — which is that sum times 2⁻¹³.
-/
import proofs.«171102_j88399016886878_1_alg».proof.Proof.Gen.ReferenceIdeal.Read
import proofs.«171102_j88399016886878_1_alg».proof.Proof.TripletSpec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- The margin of the hinge, the f32 word nearest 0.2, as the extended real it denotes. -/
abbrev margin : EReal := Ideal.ofBits .f32 0x3E4CCCCD#32

/-! ## The index functions of the generated stages, at coordinates -/

theorem idx17 (r : Fin 8192) (e : Fin 128) : idx_main_v17 (ix1 r) e = ix2 r e :=
  funext fun a => Fin.ext (by match a with | ⟨0, _⟩ => rfl | ⟨1, _⟩ => rfl)
theorem idx20 (r : Fin 8192) (e : Fin 128) : idx_main_v20 (ix1 r) e = ix2 r e :=
  funext fun a => Fin.ext (by match a with | ⟨0, _⟩ => rfl | ⟨1, _⟩ => rfl)
theorem lidx1 (r : Fin 8192) (e : Fin 128) (k : Fin 2304) : lidx_main_v1 (ix2 r e) k = ix2 r k :=
  funext fun a => Fin.ext (by match a with | ⟨0, _⟩ => rfl | ⟨1, _⟩ => rfl)
theorem ridx1 (r : Fin 8192) (e : Fin 128) (k : Fin 2304) : ridx_main_v1 (ix2 r e) k = ix2 k e :=
  funext fun a => Fin.ext (by match a with | ⟨0, _⟩ => rfl | ⟨1, _⟩ => rfl)
theorem lidx6 (r : Fin 8192) (e : Fin 128) (k : Fin 2304) : lidx_main_v6 (ix2 r e) k = ix2 r k :=
  funext fun a => Fin.ext (by match a with | ⟨0, _⟩ => rfl | ⟨1, _⟩ => rfl)
theorem ridx6 (r : Fin 8192) (e : Fin 128) (k : Fin 2304) : ridx_main_v6 (ix2 r e) k = ix2 k e :=
  funext fun a => Fin.ext (by match a with | ⟨0, _⟩ => rfl | ⟨1, _⟩ => rfl)
theorem lidx11 (r : Fin 8192) (e : Fin 128) (k : Fin 2304) : lidx_main_v11 (ix2 r e) k = ix2 r k :=
  funext fun a => Fin.ext (by match a with | ⟨0, _⟩ => rfl | ⟨1, _⟩ => rfl)
theorem ridx11 (r : Fin 8192) (e : Fin 128) (k : Fin 2304) : ridx_main_v11 (ix2 r e) k = ix2 k e :=
  funext fun a => Fin.ext (by match a with | ⟨0, _⟩ => rfl | ⟨1, _⟩ => rfl)
theorem idx3 (r : Fin 8192) (e : Fin 128) : idx_main_v2 (idx_main_v3 (ix2 r e)) = ix1 e :=
  funext fun a => Fin.ext (by match a with | ⟨0, _⟩ => rfl)
theorem idx8 (r : Fin 8192) (e : Fin 128) : idx_main_v7 (idx_main_v8 (ix2 r e)) = ix1 e :=
  funext fun a => Fin.ext (by match a with | ⟨0, _⟩ => rfl)
theorem idx13 (r : Fin 8192) (e : Fin 128) : idx_main_v12 (idx_main_v13 (ix2 r e)) = ix1 e :=
  funext fun a => Fin.ext (by match a with | ⟨0, _⟩ => rfl)

/-! ## The three embeddings -/

variable (x0 x1 x2 : (⟨S8192x1x48x48, .f32⟩ : BufTy).Contents (Elt Ideal)) (x3 : (⟨S2304x128, .f32⟩ : BufTy).Contents (Elt Ideal))
  (x4 : (⟨S128, .f32⟩ : BufTy).Contents (Elt Ideal))

/-- The anchor's embedding: the flattened anchors times W, plus the bias on every row. -/
theorem emb_anchor (r : Fin 8192) (e : Fin 128) :
    val_main_v4 (F := Ideal) x0 x3 x4 (ix2 r e) = Cert.Triplet.embed (val_main_v0 (F := Ideal) x0) x3 x4 r e := by
  rw [val_main_v4_apply, val_main_v1_apply, val_main_v3_apply, val_main_v2_apply]
  simp only [lidx1, ridx1, idx3, Ideal.addf_def, Cert.Triplet.embed]

/-- The positive's embedding. -/
theorem emb_pos (r : Fin 8192) (e : Fin 128) :
    val_main_v9 (F := Ideal) x1 x3 x4 (ix2 r e) = Cert.Triplet.embed (val_main_v5 (F := Ideal) x1) x3 x4 r e := by
  rw [val_main_v9_apply, val_main_v6_apply, val_main_v8_apply, val_main_v7_apply]
  simp only [lidx6, ridx6, idx8, Ideal.addf_def, Cert.Triplet.embed]

/-- The negative's embedding. -/
theorem emb_neg (r : Fin 8192) (e : Fin 128) :
    val_main_v14 (F := Ideal) x2 x3 x4 (ix2 r e) = Cert.Triplet.embed (val_main_v10 (F := Ideal) x2) x3 x4 r e := by
  rw [val_main_v14_apply, val_main_v11_apply, val_main_v13_apply, val_main_v12_apply]
  simp only [lidx11, ridx11, idx13, Ideal.addf_def, Cert.Triplet.embed]

/-! ## The two squared distances and the hinge -/

/-- The row sum of the squared differences anchor − positive, from the zero word: the squared distance. -/
theorem dist_pos (r : Fin 8192) :
    val_main_v17 (F := Ideal) x0 x1 x3 x4 (ix1 r)
      = Cert.Triplet.sqDist (val_main_v0 (F := Ideal) x0) (val_main_v5 (F := Ideal) x1) x3 x4 r := by
  rw [val_main_v17_apply, val_main_cst_apply]
  simp only [idx17, val_main_v16_apply, val_main_v15_apply, emb_anchor, emb_pos, Ideal.mulf_def, Ideal.subf_def,
    Ideal.ofBits_def, Ideal.ofBits_zero_f32, zero_add, Cert.Triplet.sqDist]

/-- The same against the negative. -/
theorem dist_neg (r : Fin 8192) :
    val_main_v20 (F := Ideal) x0 x2 x3 x4 (ix1 r)
      = Cert.Triplet.sqDist (val_main_v0 (F := Ideal) x0) (val_main_v10 (F := Ideal) x2) x3 x4 r := by
  rw [val_main_v20_apply, val_main_cst_0_apply]
  simp only [idx20, val_main_v19_apply, val_main_v18_apply, emb_anchor, emb_neg, Ideal.mulf_def, Ideal.subf_def,
    Ideal.ofBits_def, Ideal.ofBits_zero_f32, zero_add, Cert.Triplet.sqDist]

/-- Row r of the relu stage is the hinge loss of row r. -/
theorem hinge_row (r : Fin 8192) :
    val_main_v24 (F := Ideal) x0 x1 x2 x3 x4 (ix1 r)
      = Cert.Triplet.rowLoss margin (val_main_v0 (F := Ideal) x0) (val_main_v5 (F := Ideal) x1) (val_main_v10 (F := Ideal) x2) x3 x4 r := by
  rw [val_main_v24_apply, val_main_v23_apply, val_main_v21_apply, dist_pos, dist_neg, val_main_v22_apply, val_main_cst_1_apply,
    val_main_call0_v0_apply, val_main_call0_cst_apply]
  simp only [Ideal.maximumf_def, Ideal.addf_def, Ideal.subf_def, Ideal.ofBits_def, Ideal.ofBits_zero_f32, Cert.Triplet.rowLoss]

/-! ## The mean -/

/-- A sum over the index set of a vector is the sum over its coordinate. -/
theorem sum_vec {n : ℕ} (f : (⟨1, ![n]⟩ : Shape).Idx → EReal) : ∑ j, f j = ∑ a : Fin n, f (ix1 a) := by
  let e : (⟨1, ![n]⟩ : Shape).Idx ≃ Fin n :=
    ⟨fun j => j 0, fun a => ix1 a, fun j => (eq_ix1 j).symm, fun _ => rfl⟩
  rw [← Equiv.sum_comp e.symm f]
  rfl

/-- The reference's result: the sum of the 8192 row losses times 2⁻¹³. -/
theorem result_eq :
    val_main_v26 (F := Ideal) x0 x1 x2 x3 x4
      = fun _ => (∑ r : Fin 8192, Cert.Triplet.rowLoss margin (val_main_v0 (F := Ideal) x0) (val_main_v5 (F := Ideal) x1)
          (val_main_v10 (F := Ideal) x2) x3 x4 r) * Ideal.ofBits .f32 0x39000000#32 := by
  funext i
  rw [val_main_v26_apply, val_main_v25_apply, val_main_cst_3_apply, val_main_cst_2_apply, sum_vec]
  simp only [hinge_row, Ideal.hostDivf_def, Ideal.ofBits_def]
  exact Cert.Triplet.mean_eq _

end Cert.ReferenceIdeal.RefValue

end
-- ==== Proof.lean ====
/-
  The certificate of a triplet-margin loss kernel against its jnp reference.

  Both programs embed the anchor, positive and negative image of each of 8192 triplets by one linear map
  (flattened image · W + b), take the hinge max (‖a − p‖² − ‖a − n‖² + 0.2) 0 of each triplet, and return the mean of
  the 8192 hinges. The reference does it in one pass on the host and divides the total by 8192; the kernel walks
  sixteen blocks of 512 triplets, adds each block's sum of hinges to a running total kept across the grid, and at the
  last block multiplies the total by 2⁻¹³. Over the extended reals the two results are the same number: a block of
  rows has the row losses of the rows it was cut from, a sum over sixteen blocks of 512 rows is the sum over all rows
  (commutativity and associativity of addition only), and dividing by 8192 is multiplying by its exact reciprocal.
  No step needs the inputs to be finite, so the precondition is never opened.

  The three frames: the kernel's two (as printed, and idealized) are the generated frame certificates; the
  reference, a straight line of host operations, is its generated run with the result dropped. The idealization
  rewrote nothing, so there is nothing to preserve.
-/
import proofs.«171102_j88399016886878_1_alg».proof.Defs
import proofs.«171102_j88399016886878_1_alg».proof.Proof.Gen.Kernel
import proofs.«171102_j88399016886878_1_alg».proof.Proof.Gen.Kernel.Frame
import proofs.«171102_j88399016886878_1_alg».proof.Proof.Gen.KernelIdeal
import proofs.«171102_j88399016886878_1_alg».proof.Proof.Gen.KernelIdeal.Frame
import proofs.«171102_j88399016886878_1_alg».proof.Proof.Gen.ReferenceIdeal
import proofs.«171102_j88399016886878_1_alg».proof.Proof.Gen.ReferenceIdeal.Run
import proofs.«171102_j88399016886878_1_alg».proof.Proof.Gen.ReferenceIdeal.Read
import proofs.«171102_j88399016886878_1_alg».proof.Proof.Gen.Pre_finite_inputs
import proofs.«171102_j88399016886878_1_alg».proof.Proof.KernelValue
import proofs.«171102_j88399016886878_1_alg».proof.Proof.RefLoss

noncomputable section

namespace Cert.Proof

open Idealize.ShloMosaic Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2) (Cert.ReferenceIdeal.Value.run (F := Ideal) m ρ)

/-- The two idealized programs, run from memories that agree on the five arguments, end with the same scalar: the sum
    of the 8192 row losses of the arguments times 2⁻¹³. -/
theorem algebraic : Cert.algebraic_KernelIdeal_ReferenceIdeal := by
  intro m ρ m' ρ' _ hagree
  refine ⟨fun c => shapeCast Cert.KernelIdeal.S_ (Cert.KernelIdeal.Acc.result m c) Cert.KernelIdeal.Gen.shapeCasts_S1x1_S_,
    Cert.KernelIdeal.Acc.run (F := Ideal) m ρ, ?_⟩
  refine (θ_run Cert.ReferenceIdeal.defs _ _).mono (fun _ h c => ⟨(h c).1.trans ?_, (h c).2⟩)
    (Cert.ReferenceIdeal.Value.run (F := Ideal) m' ρ')
  show _ = shapeCast Cert.KernelIdeal.S_ (Cert.KernelIdeal.Acc.result m c) Cert.KernelIdeal.Gen.shapeCasts_S1x1_S_
  rw [Cert.KernelIdeal.Acc.value_eq, Cert.ReferenceIdeal.Read.val_main_v26_eq, Cert.ReferenceIdeal.RefValue.result_eq,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
